-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x256 : Shape := ⟨2, ![1, 256]⟩
abbrev S1x256x1 : Shape := ⟨3, ![1, 256, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x256x1024, .f32⟩
  | .local _ .vmem, ⟨16, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  iota_S1x256x2048_d1_w32 : S1x256x2048.Iotas .tc 32 [1]
  iota_S1x256x2048_d2_w32 : S1x256x2048.Iotas .tc 32 [2]
  dot_S512x1024_S1024x1024_S512x1024_1_0_0_1_n_n_wf : DotDims.WF S512x1024 S1024x1024 S512x1024 [1] [0] [0] [1] [] []
  dot_S1x256x1024_S1x2048x1024_S1x256x2048_2_2_1_1_0_0_wf : DotDims.WF S1x256x1024 S1x2048x1024 S1x256x2048 [2] [2] [1] [1] [0] [0]
  dot_S1x256x2048_S1x2048x1024_S1x256x1024_2_1_1_2_0_0_wf : DotDims.WF S1x256x2048 S1x2048x1024 S1x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x256x1024_S1x2048x1024_S1x256x2048_2_2_1_1_0_0 : DotDims S1x256x1024 S1x2048x1024 S1x256x2048 where
  lhsContracting := [2]
  rhsContracting := [2]
  lhsNonContracting := [1]
  rhsNonContracting := [1]
  lhsBatch := [0]
  rhsBatch := [0]
  wf := dot_S1x256x1024_S1x2048x1024_S1x256x2048_2_2_1_1_0_0_wf
def dot_S1x256x2048_S1x2048x1024_S1x256x1024_2_1_1_2_0_0 : DotDims S1x256x2048 S1x2048x1024 S1x256x1024 where
  lhsContracting := [2]
  rhsContracting := [1]
  lhsNonContracting := [1]
  rhsNonContracting := [2]
  lhsBatch := [0]
  rhsBatch := [0]
  wf := dot_S1x256x2048_S1x2048x1024_S1x256x1024_2_1_1_2_0_0_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S2048x2048 : Shape := ⟨2, ![2048, 2048]⟩
abbrev S1x2048x2048 : Shape := ⟨3, ![1, 2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S2048x2048, .f32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S1x2048x2048, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.PayQkv.lean ====
/-
  The projection kernel's stored values, read at an entry.

  Each of the three stores of the projection body holds, at row p and column e of the 512-row block, the sum over the
  1024 input features d of the block's row p at d times the weight's (d, e): a change of float format is the identity on
  the extended reals, and the matrix product into a zero accumulator is the plain sum over the contracted axis.
-/
import proofs.«161243_j64132451663995_2_alg».proof.Proof.Gen.KernelIdeal.Skeleton
import proofs.«161243_j64132451663995_2_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.PayQkv

open Cert.KernelIdeal Cert.KernelIdeal.Gen Idealize.ShloMosaic Idealize.ShloMosaic.ValueIdx

/-- The row-block times weight product at (p, e). -/
theorem matmul_entry (x : FVec Ideal S512x1024 .bf16) (w : FVec Ideal S1024x1024 .bf16) (p : Fin 512) (e : Fin 1024) :
    matmul dot_S512x1024_S1024x1024_S512x1024_1_0_0_1_n_n none x w (constant S512x1024 .f32 0x00000000#32) (ix2 p e)
      = ∑ d : Fin 1024, x (ix2 p d) * w (ix2 d e) := by
  refine (Ideal.matmul_constant_zero_apply _ none x w (ix2 p e)).trans ?_
  exact DotPlain.sum_eq dot_S512x1024_S1024x1024_S512x1024_1_0_0_1_n_n rfl rfl rfl rfl rfl rfl rfl rfl x w p e

/-- The first store's value at (p, e). -/
theorem pay2_entry (x0 : Vec Ideal S512x1024 .f32) (w : Vec Ideal S1024x1024 .bf16) (p : Fin 512) (e : Fin 1024) :
    k0_pay2 x0 w (ix2 p e) = ∑ d : Fin 1024, x0 (ix2 p d) * w (ix2 d e) := by
  unfold k0_pay2 k0_pay1
  dsimp only
  rw [shapeCast_self, shapeCast_self]
  exact matmul_entry _ _ p e

/-- The second store's value at (p, e). -/
theorem pay3_entry (x0 : Vec Ideal S512x1024 .f32) (w : Vec Ideal S1024x1024 .bf16) (p : Fin 512) (e : Fin 1024) :
    k0_pay3 x0 w (ix2 p e) = ∑ d : Fin 1024, x0 (ix2 p d) * w (ix2 d e) := by
  unfold k0_pay3 k0_pay1
  dsimp only
  rw [shapeCast_self, shapeCast_self]
  exact matmul_entry _ _ p e

/-- The third store's value at (p, e). -/
theorem pay4_entry (x0 : Vec Ideal S512x1024 .f32) (w : Vec Ideal S1024x1024 .bf16) (p : Fin 512) (e : Fin 1024) :
    k0_pay4 x0 w (ix2 p e) = ∑ d : Fin 1024, x0 (ix2 p d) * w (ix2 d e) := by
  unfold k0_pay4 k0_pay1
  dsimp only
  rw [shapeCast_self, shapeCast_self]
  exact matmul_entry _ _ p e

end Cert.KernelIdeal.PayQkv

end
-- ==== Proof.Region0.lean ====
/-
  The projection region's three output arrays after its write-backs.

  The region walks sixteen row blocks of 512 rows. At each point the body stores, into each of its three output blocks,
  the block's rows times one whole weight matrix; the sixteen blocks tile the 8192 rows, so each output array ends as
  ONE function of the arrays the region found: entry (r, e) is the sum over the feature d of the row array at (r, d)
  times the weight at (d, e).
-/
import proofs.«161243_j64132451663995_2_alg».proof.Proof.FrameKernelIdeal
import proofs.«161243_j64132451663995_2_alg».proof.Proof.PayQkv
import Idealize.ShloMosaic.Lib.Pipeline.Value
import Idealize.ShloMosaic.Lib.ValueIdx

noncomputable section

open scoped BigOperators

namespace Cert.KernelIdeal.Region0

open Cert.KernelIdeal Cert.KernelIdeal.Gen Cert.KernelIdeal.GenP Cert.KernelIdeal.PayQkv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Rows times a weight matrix: entry (r, e) is the sum over d of x(r, d) · w(d, e). -/
def rowsTimes (x : S8192x1024.Idx → Elt Ideal .f32) (w : S1024x1024.Idx → Elt Ideal .bf16) : S8192x1024.Idx → Elt Ideal .bf16 :=
  fun i => ∑ d : Fin 1024, (x (ix2 (i 0) d) : EReal) * (w (ix2 d (i 1)) : EReal)

/-- The block sum is the array's entry when the block's row and the weight are the arrays' (at the matching indices). -/
theorem rows_of_blocks (A : S8192x1024.Idx → Elt Ideal .f32) (W : S1024x1024.Idx → Elt Ideal .bf16)
    (xb : S512x1024.Idx → Elt Ideal .f32) (wb : S1024x1024.Idx → Elt Ideal .bf16) (i : S8192x1024.Idx) (j : S512x1024.Idx)
    (hx : ∀ d : Fin 1024, xb (ix2 (j 0) d) = A (ix2 (i 0) d)) (hw : ∀ d : Fin 1024, wb (ix2 d (j 1)) = W (ix2 d (i 1))) :
    (∑ d : Fin 1024, (xb (ix2 (j 0) d) : EReal) * (wb (ix2 d (j 1)) : EReal)) = rowsTimes A W i := by
  unfold rowsTimes
  exact Finset.sum_congr rfl fun d _ => by rw [hx d, hw d]

theorem hz2 : (![0, 0] : Fin 2 → Nat) = fun _ => 0 := funext fun a => by fin_cases a <;> rfl

/-- The three stored values at any index of the block. -/
theorem pay2_idx (x0 : Vec Ideal S512x1024 .f32) (w : Vec Ideal S1024x1024 .bf16) (j : S512x1024.Idx) :
    k0_pay2 x0 w j = ∑ d : Fin 1024, x0 (ix2 (j 0) d) * w (ix2 d (j 1)) :=
  (congrArg (k0_pay2 x0 w) (eq_ix2 j)).trans (pay2_entry x0 w (j 0) (j 1))
theorem pay3_idx (x0 : Vec Ideal S512x1024 .f32) (w : Vec Ideal S1024x1024 .bf16) (j : S512x1024.Idx) :
    k0_pay3 x0 w j = ∑ d : Fin 1024, x0 (ix2 (j 0) d) * w (ix2 d (j 1)) :=
  (congrArg (k0_pay3 x0 w) (eq_ix2 j)).trans (pay3_entry x0 w (j 0) (j 1))
theorem pay4_idx (x0 : Vec Ideal S512x1024 .f32) (w : Vec Ideal S1024x1024 .bf16) (j : S512x1024.Idx) :
    k0_pay4 x0 w j = ∑ d : Fin 1024, x0 (ix2 (j 0) d) * w (ix2 d (j 1)) :=
  (congrArg (k0_pay4 x0 w) (eq_ix2 j)).trans (pay4_entry x0 w (j 0) (j 1))

/-! ## Output window 4: the query rows -/

/-- The printed index maps over the sixteen grid points: the row blocks of the input and of this output move together,
    and every other block index is zero. -/
theorem idx_facts4 : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = 0
    ∧ win0_4.index t (1 : Fin 2) = 0 :=
  (by decide +kernel : ∀ t : Fin grid0.N, _)

/-- Every one of the sixteen row blocks is some grid point's. -/
theorem idx_onto4 : ∀ q0 : Fin 16, ∃ t : Fin cfg0.N, win0_4.index t = ![q0.val, 0] :=
  (by decide +kernel : ∀ q0 : Fin 16, ∃ t : Fin grid0.N, win0_4.index t = ![q0.val, 0])

/-- What grid point t writes back is block t of the rows-times-weight array. -/
theorem flushed4_eq (c : Dev nD) (t : Fin cfg0.N) :
    (dat0 V c).flushed 4 t = ((cfg0.win 4).blk t).view.read (Elt Ideal) (rowsTimes (V c main_v3) (V c main_v0)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x1024) hz2]
  obtain ⟨e0, e1, e2, e3, e4⟩ := idx_facts4 t
  funext j
  refine (pay2_idx _ _ j).trans (rows_of_blocks (V c main_v3) (V c main_v0) (iblk0 V c 0 t) (iblk0 V c 1 t) (((cfg0.win 4).blk t).view.emb j) j ?_ ?_)
  · intro d
    show V c main_v3 (((cfg0.win 0).blk t).view.emb (ix2 (j 0) d)) = V c main_v3 (ix2 ((((cfg0.win 4).blk t).view.emb j) 0) d)
    refine congrArg (V c main_v3) ?_
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * d.val = d.val; omega
  · intro d
    show V c main_v0 (((cfg0.win 1).blk t).view.emb (ix2 d (j 1))) = V c main_v0 (ix2 d ((((cfg0.win 4).blk t).view.emb j) 1))
    refine congrArg (V c main_v0) ?_
    funext a; apply Fin.ext
    match a with
    | ⟨0, _⟩ => show win0_1.index t (0 : Fin 2) * 1024 + 1 * d.val = d.val; omega
    | ⟨1, _⟩ => show win0_1.index t (1 : Fin 2) * 1024 + 1 * (j 1).val = win0_4.index t (1 : Fin 2) * 1024 + 1 * (j 1).val; omega

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Row r lies in the block of the point whose row-block index is r / 512. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the sixteen write-backs the query array is the rows-times-weight array. -/
theorem arr4 (c : Dev nD) : (dat0 V c).arrAt 4 cfg0.N = rowsTimes (V c main_v3) (V c main_v0) :=
  (dat0 V c).arrAt_eq_of_cover 4 _ (fun t _ => flushed4_eq V c t) cover4

/-! ## Output window 5: the key rows -/

/-- The printed index maps over the sixteen grid points, for the key output and the key weight. -/
theorem idx_facts5 : ∀ t : Fin cfg0.N, win0_0.index t (0 : Fin 2) = win0_5.index t (0 : Fin 2)
    ∧ win0_0.index t (1 : Fin 2) = 0
    ∧ win0_2.index t (0 : Fin 2) = 0
    ∧ win0_2.index t (1 : Fin 2) = 0
    ∧ win0_5.index t (1 : Fin 2) = 0 :=
  (by decide +kernel : ∀ t : Fin grid0.N, _)

/-- Every one of the sixteen row blocks is some grid point's. -/
theorem idx_onto5 : ∀ q0 : Fin 16, ∃ t : Fin cfg0.N, win0_5.index t = ![q0.val, 0] :=
  (by decide +kernel : ∀ q0 : Fin 16, ∃ t : Fin grid0.N, win0_5.index t = ![q0.val, 0])

/-- What grid point t writes back is block t of the rows-times-weight array. -/
theorem flushed5_eq (c : Dev nD) (t : Fin cfg0.N) :
    (dat0 V c).flushed 5 t = ((cfg0.win 5).blk t).view.read (Elt Ideal) (rowsTimes (V c main_v3) (V c main_v1)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x1024) hz2]
  obtain ⟨e0, e1, e2, e3, e4⟩ := idx_facts5 t
  funext j
  refine (pay3_idx _ _ j).trans (rows_of_blocks (V c main_v3) (V c main_v1) (iblk0 V c 0 t) (iblk0 V c 2 t) (((cfg0.win 5).blk t).view.emb j) j ?_ ?_)
  · intro d
    show V c main_v3 (((cfg0.win 0).blk t).view.emb (ix2 (j 0) d)) = V c main_v3 (ix2 ((((cfg0.win 5).blk t).view.emb j) 0) d)
    refine congrArg (V c main_v3) ?_
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * d.val = d.val; omega
  · intro d
    show V c main_v1 (((cfg0.win 2).blk t).view.emb (ix2 d (j 1))) = V c main_v1 (ix2 d ((((cfg0.win 5).blk t).view.emb j) 1))
    refine congrArg (V c main_v1) ?_
    funext a; apply Fin.ext
    match a with
    | ⟨0, _⟩ => show win0_2.index t (0 : Fin 2) * 1024 + 1 * d.val = d.val; omega
    | ⟨1, _⟩ => show win0_2.index t (1 : Fin 2) * 1024 + 1 * (j 1).val = win0_5.index t (1 : Fin 2) * 1024 + 1 * (j 1).val; omega

/-- An index of the array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Row r lies in the block of the point whose row-block index is r / 512. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := idx_onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the sixteen write-backs the key array is the rows-times-weight array. -/
theorem arr5 (c : Dev nD) : (dat0 V c).arrAt 5 cfg0.N = rowsTimes (V c main_v3) (V c main_v1) :=
  (dat0 V c).arrAt_eq_of_cover 5 _ (fun t _ => flushed5_eq V c t) cover5

/-! ## Output window 6: the value rows -/

/-- The printed index maps over the sixteen grid points, for the value output and the value weight. -/
theorem idx_facts6 : ∀ t : Fin cfg0.N, win0_0.index t (0 : Fin 2) = win0_6.index t (0 : Fin 2)
    ∧ win0_0.index t (1 : Fin 2) = 0
    ∧ win0_3.index t (0 : Fin 2) = 0
    ∧ win0_3.index t (1 : Fin 2) = 0
    ∧ win0_6.index t (1 : Fin 2) = 0 :=
  (by decide +kernel : ∀ t : Fin grid0.N, _)

/-- Every one of the sixteen row blocks is some grid point's. -/
theorem idx_onto6 : ∀ q0 : Fin 16, ∃ t : Fin cfg0.N, win0_6.index t = ![q0.val, 0] :=
  (by decide +kernel : ∀ q0 : Fin 16, ∃ t : Fin grid0.N, win0_6.index t = ![q0.val, 0])

/-- What grid point t writes back is block t of the rows-times-weight array. -/
theorem flushed6_eq (c : Dev nD) (t : Fin cfg0.N) :
    (dat0 V c).flushed 6 t = ((cfg0.win 6).blk t).view.read (Elt Ideal) (rowsTimes (V c main_v3) (V c main_v2)) := by
  show (cfg0.win 6).cut (grid0.coords t) ((dat0 V c).after 6 t) = _
  rw [after0_6]
  unfold out0_6
  rw [View.canon_unit_zero hz2]
  simp only [View.ld_unit_zero (S := S512x1024) hz2, View.ld_unit_zero (S := S1024x1024) hz2]
  obtain ⟨e0, e1, e2, e3, e4⟩ := idx_facts6 t
  funext j
  refine (pay4_idx _ _ j).trans (rows_of_blocks (V c main_v3) (V c main_v2) (iblk0 V c 0 t) (iblk0 V c 3 t) (((cfg0.win 6).blk t).view.emb j) j ?_ ?_)
  · intro d
    show V c main_v3 (((cfg0.win 0).blk t).view.emb (ix2 (j 0) d)) = V c main_v3 (ix2 ((((cfg0.win 6).blk t).view.emb j) 0) d)
    refine congrArg (V c main_v3) ?_
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * d.val = d.val; omega
  · intro d
    show V c main_v2 (((cfg0.win 3).blk t).view.emb (ix2 d (j 1))) = V c main_v2 (ix2 d ((((cfg0.win 6).blk t).view.emb j) 1))
    refine congrArg (V c main_v2) ?_
    funext a; apply Fin.ext
    match a with
    | ⟨0, _⟩ => show win0_3.index t (0 : Fin 2) * 1024 + 1 * d.val = d.val; omega
    | ⟨1, _⟩ => show win0_3.index t (1 : Fin 2) * 1024 + 1 * (j 1).val = win0_6.index t (1 : Fin 2) * 1024 + 1 * (j 1).val; omega

/-- An index of the array is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_2).slice (win0_6.rect t)).set ↔ _
  rw [View.set_slice_whole, Rect.mem_set_unit]
  exact Iff.rfl

/-- Row r lies in the block of the point whose row-block index is r / 512. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- After the sixteen write-backs the value array is the rows-times-weight array. -/
theorem arr6 (c : Dev nD) : (dat0 V c).arrAt 6 cfg0.N = rowsTimes (V c main_v3) (V c main_v2) :=
  (dat0 V c).arrAt_eq_of_cover 6 _ (fun t _ => flushed6_eq V c t) cover6

end Cert.KernelIdeal.Region0

end
-- ==== Proof.Spec.lean ====
/-
  Causal attention after three linear projections, as one function of the four argument arrays on the extended reals.

  With x : [4, 2048, 1024] and Wq, Wk, Wv : [1024, 1024],
    q = x · Wq, k = x · Wk, v = x · Wv                      (each entry a sum over the 1024 input features),
    s(b, i, j) = (∑ e, q(b, i, e) · k(b, j, e)) · 2⁻⁵        (1/√1024 = 1/32 is the dyadic 2⁻⁵),
    w(b, i, ·) = softmax of the row s(b, i, ·) over ALL 2048 keys (shifted by the row's maximum),
    out(b, i, e) = ∑ j, [j ≤ i] · w(b, i, j) · v(b, j, e)   (the causal mask applied AFTER the softmax, no renormalising).
  Nothing here needs a finite input: the only laws used later are x / 32 = x · 2⁻⁵, w · 1 = w, w · 0 = 0, max ⊥ m = m and
  0 + s = s, which hold on every extended real.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- An array of shape [4, 2048, 1024] of extended reals. -/
abbrev A3 := (⟨3, ![4, 2048, 1024]⟩ : Shape).Idx → EReal
/-- A weight matrix [1024, 1024]. -/
abbrev A2 := (⟨2, ![1024, 1024]⟩ : Shape).Idx → EReal
/-- The same data by coordinates. -/
abbrev C3 := Fin 4 → Fin 2048 → Fin 1024 → EReal

/-- A linear projection: entry (b, s, e) is the sum over the input feature d of x(b, s, d) · w(d, e). -/
def proj (x : A3) (w : A2) : C3 := fun b s e => ∑ d : Fin 1024, x (ix3 b s d) * w (ix2 d e)

/-- The scale 2⁻⁵ = 1/√1024, as the kernel spells it. -/
def scale : EReal := Ideal.ofBits .f32 0x3D000000#32
/-- −∞, the value a row maximum starts from. -/
def negInf : EReal := Ideal.ofBits .f32 0xFF800000#32

/-- The scaled score of query i against key j in batch b. -/
def score (q k : C3) (b : Fin 4) (i j : Fin 2048) : EReal := (∑ e : Fin 1024, q b i e * k b j e) * scale

/-- A row's maximum, folded from −∞. -/
def rowMax (s : Fin 2048 → EReal) : EReal := (Finset.univ : Finset (Fin 2048)).fold max negInf s

/-- The shifted exponential of a row's entry. -/
def expo (s : Fin 2048 → EReal) (j : Fin 2048) : EReal := Ideal.exp (s j - rowMax s)

/-- The softmax weight of entry j of the row s. -/
def soft (s : Fin 2048 → EReal) (j : Fin 2048) : EReal := Ideal.div (expo s j) (∑ j' : Fin 2048, expo s j')

/-- The causal mask: key j counts for query i only when j ≤ i. -/
def causal (i j : Fin 2048) (w : EReal) : EReal := if j.val ≤ i.val then w else 0

/-- Masked attention: the masked softmax weights of row (b, i) against the values. -/
def attn (q k v : C3) : C3 := fun b i e => ∑ j : Fin 2048, causal i j (soft (score q k b i) j) * v b j e

/-- The whole computation as one function of the four argument arrays. -/
def result (x : A3) (wq wk wv : A2) : A3 := fun i => attn (proj x wq) (proj x wk) (proj x wv) (i 0) (i 1) (i 2)

theorem result_ix3 (x : A3) (wq wk wv : A2) (b : Fin 4) (i : Fin 2048) (e : Fin 1024) :
    result x wq wk wv (ix3 b i e) = attn (proj x wq) (proj x wk) (proj x wv) b i e := rfl

/-! ## The constants -/

/-- The zero word is 0. -/
theorem ofBits_zero : Ideal.ofBits .f32 0x00000000#32 = 0 := by simp [Ideal.ofBits, Ideal.ieee]
/-- The word of 1.0 is 1. -/
theorem ofBits_one : Ideal.ofBits .f32 0x3F800000#32 = 1 := by
  simp [Ideal.ofBits, Ideal.ieee, -EReal.coe_mul]; norm_num
/-- The word of 1024.0 is the real 1024. -/
theorem ofBits_1024 : Ideal.ofBits .f32 0x44800000#32 = ((1024 : ℝ) : EReal) := by
  simp [Ideal.ofBits, Ideal.ieee, -EReal.coe_mul]; norm_num
/-- The kernel's scale is the real 1/32. -/
theorem scale_eq : scale = (((1 / 32 : ℝ)) : EReal) := by
  unfold scale
  simp [Ideal.ofBits, Ideal.ieee, -EReal.coe_mul]; norm_num
/-- The starting value of a maximum is the bottom element. -/
theorem negInf_eq : negInf = ⊥ := by
  unfold negInf
  simp [Ideal.ofBits, Ideal.ieee]

/-- √1024 = 32, so dividing by the square root of the word 1024.0 is multiplying by 2⁻⁵: on EVERY extended real. -/
theorem div_sqrt_1024 (x : EReal) : Ideal.div x (Ideal.sqrt (Ideal.ofBits .f32 0x44800000#32)) = x * scale := by
  have h32 : Real.sqrt 1024 = 32 := by
    rw [show (1024 : ℝ) = 32 ^ 2 by norm_num]
    exact Real.sqrt_sq (by norm_num)
  rw [ofBits_1024, Ideal.sqrt_coe, if_neg (by norm_num), h32, Ideal.div_coe (by norm_num), scale_eq]

/-- Starting a maximum again from −∞ changes nothing. -/
theorem max_negInf (m : EReal) : max negInf m = m := by rw [negInf_eq]; exact max_eq_right bot_le

end Cert.Attn

end
-- ==== Proof.PayAttn.lean ====
/-
  The attention body's stored value, read at one entry of its block: the masked softmax weights of the query's row against
  the value block. The body's stages are named (scores, shifted exponentials, weights, mask bit), each is read at an index
  given by its coordinates, and the stored contraction is the sum over the keys of masked weight times value.
-/
import proofs.«161243_j64132451663995_2_alg».proof.Proof.Gen.KernelIdeal.Skeleton
import proofs.«161243_j64132451663995_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayAttn

open Cert.KernelIdeal Cert.KernelIdeal.Gen Idealize.ShloMosaic Idealize.ShloMosaic.ValueIdx

/-! ## The body's stages, named -/

/-- The scaled scores of the query block against the key block. -/
def scores (x0 : Vec Ideal S1x256x1024 .bf16) (x1 : Vec Ideal S1x2048x1024 .bf16) : FVec Ideal S1x256x2048 .f32 :=
  mulf (matmul dot_S1x256x1024_S1x2048x1024_S1x256x2048_2_2_1_1_0_0 none
      (shapeCast S1x256x1024 x0 shapeCasts_S1x256x1024_S1x256x1024 : FVec Ideal S1x256x1024 .bf16)
      (shapeCast S1x2048x1024 x1 shapeCasts_S1x2048x1024_S1x2048x1024 : FVec Ideal S1x2048x1024 .bf16)
      (constant S1x256x2048 .f32 0x00000000#32))
    (broadcast S1x256x2048 (Scalar.ofBits .f32 0x3D000000#32))

/-- Each row's entries shifted by the row's maximum, exponentiated. -/
def expos (s : FVec Ideal S1x256x2048 .f32) : FVec Ideal S1x256x2048 .f32 :=
  exp (subf s (broadcastTo S1x256x2048
    (shapeCast S1x256x1 (multiReduction .maximumf [2] S1x256 s 0xFF800000#32 reduces_S1x256x2048_S1x256 (.inl rfl) rfl)
      shapeCasts_S1x256_S1x256x1) broadcasts_S1x256x1_S1x256x2048))

/-- Each row's entries divided by the row's sum. -/
def weights (p : FVec Ideal S1x256x2048 .f32) : FVec Ideal S1x256x2048 .f32 :=
  divf p (broadcastTo S1x256x2048
    (shapeCast S1x256x1 (multiReduction .add [2] S1x256 p 0x00000000#32 reduces_S1x256x2048_S1x256 (.inl rfl) rfl)
      shapeCasts_S1x256_S1x256x1) broadcasts_S1x256x1_S1x256x2048)

/-- The mask bit: the key's position at most the query's position (the block's first row position plus the row). -/
def maskBit (g1 : BitVec 32) : IVec S1x256x2048 1 :=
  cmpi .sle (iota .tc S1x256x2048 32 [2] iota_S1x256x2048_d2_w32)
    (addi (broadcast S1x256x2048 (Scalar.muli g1 256#32)) (iota .tc S1x256x2048 32 [1] iota_S1x256x2048_d1_w32))

/-- The stored value is the contraction of the masked weights with the value block. -/
theorem k1_pay1_eq (g : grid1.Coords) (x0 : Vec Ideal S1x256x1024 .bf16) (x1 x2 : Vec Ideal S1x2048x1024 .bf16) :
    k1_pay1 g x0 x1 x2
      = matmul dot_S1x256x2048_S1x2048x1024_S1x256x1024_2_1_1_2_0_0 none
          (truncf .bf16 (select (maskBit (BitVec.ofNat 32 (g 1).val)) (weights (expos (scores x0 x1)))
            (broadcast S1x256x2048 (Scalar.ofBits .f32 0x00000000#32))) bitsLt_bf16_f32)
          (shapeCast S1x2048x1024 x2 shapeCasts_S1x2048x1024_S1x2048x1024 : FVec Ideal S1x2048x1024 .bf16)
          (constant S1x256x1024 .f32 0x00000000#32) := rfl

/-! ## The two contractions at an entry

The operand indices of a batched contraction at an output index and a contraction index, one axis at a time; then the
contraction's sum re-indexed by the contracted axis's one coordinate. -/

theorem lhs1_0 (i : S1x256x2048.Idx) (q : dot_S1x256x1024_S1x2048x1024_S1x256x2048_2_2_1_1_0_0.contr.Idx) :
    (dot_S1x256x1024_S1x2048x1024_S1x256x2048_2_2_1_1_0_0.lhsIdx i q 0).val = (i 0).val := by
  unfold DotDims.lhsIdx
  rw [dif_pos (show (0 : Fin S1x256x1024.rank) ∈ dot_S1x256x1024_S1x2048x1024_S1x256x2048_2_2_1_1_0_0.lhsBatch by decide)]
  rfl
theorem lhs1_1 (i : S1x256x2048.Idx) (q : dot_S1x256x1024_S1x2048x1024_S1x256x2048_2_2_1_1_0_0.contr.Idx) :
    (dot_S1x256x1024_S1x2048x1024_S1x256x2048_2_2_1_1_0_0.lhsIdx i q 1).val = (i 1).val := by
  unfold DotDims.lhsIdx
  rw [dif_neg (show ¬(1 : Fin S1x256x1024.rank) ∈ dot_S1x256x1024_S1x2048x1024_S1x256x2048_2_2_1_1_0_0.lhsBatch by decide), dif_pos (show (1 : Fin S1x256x1024.rank) ∈ dot_S1x256x1024_S1x2048x1024_S1x256x2048_2_2_1_1_0_0.lhsNonContracting by decide)]
  rfl
theorem lhs1_2 (i : S1x256x2048.Idx) (q : dot_S1x256x1024_S1x2048x1024_S1x256x2048_2_2_1_1_0_0.contr.Idx) :
    (dot_S1x256x1024_S1x2048x1024_S1x256x2048_2_2_1_1_0_0.lhsIdx i q 2).val = (q ⟨0, by decide⟩).val :=
  dot_S1x256x1024_S1x2048x1024_S1x256x2048_2_2_1_1_0_0.lhsIdx_val_of_single rfl i q
theorem rhs1_0 (i : S1x256x2048.Idx) (q : dot_S1x256x1024_S1x2048x1024_S1x256x2048_2_2_1_1_0_0.contr.Idx) :
    (dot_S1x256x1024_S1x2048x1024_S1x256x2048_2_2_1_1_0_0.rhsIdx i q 0).val = (i 0).val := by
  unfold DotDims.rhsIdx
  rw [dif_pos (show (0 : Fin S1x2048x1024.rank) ∈ dot_S1x256x1024_S1x2048x1024_S1x256x2048_2_2_1_1_0_0.rhsBatch by decide)]
  rfl
theorem rhs1_1 (i : S1x256x2048.Idx) (q : dot_S1x256x1024_S1x2048x1024_S1x256x2048_2_2_1_1_0_0.contr.Idx) :
    (dot_S1x256x1024_S1x2048x1024_S1x256x2048_2_2_1_1_0_0.rhsIdx i q 1).val = (i 2).val := by
  unfold DotDims.rhsIdx
  rw [dif_neg (show ¬(1 : Fin S1x2048x1024.rank) ∈ dot_S1x256x1024_S1x2048x1024_S1x256x2048_2_2_1_1_0_0.rhsBatch by decide), dif_pos (show (1 : Fin S1x2048x1024.rank) ∈ dot_S1x256x1024_S1x2048x1024_S1x256x2048_2_2_1_1_0_0.rhsNonContracting by decide)]
  rfl
theorem rhs1_2 (i : S1x256x2048.Idx) (q : dot_S1x256x1024_S1x2048x1024_S1x256x2048_2_2_1_1_0_0.contr.Idx) :
    (dot_S1x256x1024_S1x2048x1024_S1x256x2048_2_2_1_1_0_0.rhsIdx i q 2).val = (q ⟨0, by decide⟩).val :=
  dot_S1x256x1024_S1x2048x1024_S1x256x2048_2_2_1_1_0_0.rhsIdx_val_of_single rfl i q

/-- The first contraction into zero at (z, r, j): the inner product of row r of the left block and row j of the right. -/
theorem matmul1_entry (a : FVec Ideal S1x256x1024 .bf16) (b : FVec Ideal S1x2048x1024 .bf16) (z : Fin 1) (r : Fin 256) (j : Fin 2048) :
    matmul dot_S1x256x1024_S1x2048x1024_S1x256x2048_2_2_1_1_0_0 none a b (constant S1x256x2048 .f32 0x00000000#32) (ix3 z r j)
      = ∑ e' : Fin 1024, a (ix3 z r e') * b (ix3 z j e') := by
  show FloatOps.matmul dot_S1x256x1024_S1x2048x1024_S1x256x2048_2_2_1_1_0_0 none a b (constant S1x256x2048 .f32 0x00000000#32) (ix3 z r j) = _
  rw [Ideal.matmul_constant_zero_apply, ← Equiv.sum_comp (contrEquiv1 dot_S1x256x1024_S1x2048x1024_S1x256x2048_2_2_1_1_0_0 1024 rfl rfl).symm]
  refine Finset.sum_congr rfl fun k _ => ?_
  have hk := contrEquiv1_symm_val dot_S1x256x1024_S1x2048x1024_S1x256x2048_2_2_1_1_0_0 1024 rfl rfl k
  have el : dot_S1x256x1024_S1x2048x1024_S1x256x2048_2_2_1_1_0_0.lhsIdx (ix3 z r j) ((contrEquiv1 dot_S1x256x1024_S1x2048x1024_S1x256x2048_2_2_1_1_0_0 1024 rfl rfl).symm k) = ix3 z r k := funext fun c => Fin.ext (by
    match c with
    | ⟨0, _⟩ => exact lhs1_0 _ _
    | ⟨1, _⟩ => exact lhs1_1 _ _
    | ⟨2, _⟩ => exact (lhs1_2 _ _).trans hk)
  have er : dot_S1x256x1024_S1x2048x1024_S1x256x2048_2_2_1_1_0_0.rhsIdx (ix3 z r j) ((contrEquiv1 dot_S1x256x1024_S1x2048x1024_S1x256x2048_2_2_1_1_0_0 1024 rfl rfl).symm k) = ix3 z j k := funext fun c => Fin.ext (by
    match c with
    | ⟨0, _⟩ => exact rhs1_0 _ _
    | ⟨1, _⟩ => exact rhs1_1 _ _
    | ⟨2, _⟩ => exact (rhs1_2 _ _).trans hk)
  rw [el, er]

theorem lhs2_0 (i : S1x256x1024.Idx) (q : dot_S1x256x2048_S1x2048x1024_S1x256x1024_2_1_1_2_0_0.contr.Idx) :
    (dot_S1x256x2048_S1x2048x1024_S1x256x1024_2_1_1_2_0_0.lhsIdx i q 0).val = (i 0).val := by
  unfold DotDims.lhsIdx
  rw [dif_pos (show (0 : Fin S1x256x2048.rank) ∈ dot_S1x256x2048_S1x2048x1024_S1x256x1024_2_1_1_2_0_0.lhsBatch by decide)]
  rfl
theorem lhs2_1 (i : S1x256x1024.Idx) (q : dot_S1x256x2048_S1x2048x1024_S1x256x1024_2_1_1_2_0_0.contr.Idx) :
    (dot_S1x256x2048_S1x2048x1024_S1x256x1024_2_1_1_2_0_0.lhsIdx i q 1).val = (i 1).val := by
  unfold DotDims.lhsIdx
  rw [dif_neg (show ¬(1 : Fin S1x256x2048.rank) ∈ dot_S1x256x2048_S1x2048x1024_S1x256x1024_2_1_1_2_0_0.lhsBatch by decide), dif_pos (show (1 : Fin S1x256x2048.rank) ∈ dot_S1x256x2048_S1x2048x1024_S1x256x1024_2_1_1_2_0_0.lhsNonContracting by decide)]
  rfl
theorem lhs2_2 (i : S1x256x1024.Idx) (q : dot_S1x256x2048_S1x2048x1024_S1x256x1024_2_1_1_2_0_0.contr.Idx) :
    (dot_S1x256x2048_S1x2048x1024_S1x256x1024_2_1_1_2_0_0.lhsIdx i q 2).val = (q ⟨0, by decide⟩).val :=
  dot_S1x256x2048_S1x2048x1024_S1x256x1024_2_1_1_2_0_0.lhsIdx_val_of_single rfl i q
theorem rhs2_0 (i : S1x256x1024.Idx) (q : dot_S1x256x2048_S1x2048x1024_S1x256x1024_2_1_1_2_0_0.contr.Idx) :
    (dot_S1x256x2048_S1x2048x1024_S1x256x1024_2_1_1_2_0_0.rhsIdx i q 0).val = (i 0).val := by
  unfold DotDims.rhsIdx
  rw [dif_pos (show (0 : Fin S1x2048x1024.rank) ∈ dot_S1x256x2048_S1x2048x1024_S1x256x1024_2_1_1_2_0_0.rhsBatch by decide)]
  rfl
theorem rhs2_1 (i : S1x256x1024.Idx) (q : dot_S1x256x2048_S1x2048x1024_S1x256x1024_2_1_1_2_0_0.contr.Idx) :
    (dot_S1x256x2048_S1x2048x1024_S1x256x1024_2_1_1_2_0_0.rhsIdx i q 1).val = (q ⟨0, by decide⟩).val :=
  dot_S1x256x2048_S1x2048x1024_S1x256x1024_2_1_1_2_0_0.rhsIdx_val_of_single rfl i q
theorem rhs2_2 (i : S1x256x1024.Idx) (q : dot_S1x256x2048_S1x2048x1024_S1x256x1024_2_1_1_2_0_0.contr.Idx) :
    (dot_S1x256x2048_S1x2048x1024_S1x256x1024_2_1_1_2_0_0.rhsIdx i q 2).val = (i 2).val := by
  unfold DotDims.rhsIdx
  rw [dif_neg (show ¬(2 : Fin S1x2048x1024.rank) ∈ dot_S1x256x2048_S1x2048x1024_S1x256x1024_2_1_1_2_0_0.rhsBatch by decide), dif_pos (show (2 : Fin S1x2048x1024.rank) ∈ dot_S1x256x2048_S1x2048x1024_S1x256x1024_2_1_1_2_0_0.rhsNonContracting by decide)]
  rfl

/-- The second contraction into zero at (z, r, e): the sum over the keys j of left (z, r, j) times right (z, j, e). -/
theorem matmul2_entry (w : FVec Ideal S1x256x2048 .bf16) (v : FVec Ideal S1x2048x1024 .bf16) (z : Fin 1) (r : Fin 256) (e : Fin 1024) :
    matmul dot_S1x256x2048_S1x2048x1024_S1x256x1024_2_1_1_2_0_0 none w v (constant S1x256x1024 .f32 0x00000000#32) (ix3 z r e)
      = ∑ j : Fin 2048, w (ix3 z r j) * v (ix3 z j e) := by
  show FloatOps.matmul dot_S1x256x2048_S1x2048x1024_S1x256x1024_2_1_1_2_0_0 none w v (constant S1x256x1024 .f32 0x00000000#32) (ix3 z r e) = _
  rw [Ideal.matmul_constant_zero_apply, ← Equiv.sum_comp (contrEquiv1 dot_S1x256x2048_S1x2048x1024_S1x256x1024_2_1_1_2_0_0 2048 rfl rfl).symm]
  refine Finset.sum_congr rfl fun k _ => ?_
  have hk := contrEquiv1_symm_val dot_S1x256x2048_S1x2048x1024_S1x256x1024_2_1_1_2_0_0 2048 rfl rfl k
  have el : dot_S1x256x2048_S1x2048x1024_S1x256x1024_2_1_1_2_0_0.lhsIdx (ix3 z r e) ((contrEquiv1 dot_S1x256x2048_S1x2048x1024_S1x256x1024_2_1_1_2_0_0 2048 rfl rfl).symm k) = ix3 z r k := funext fun c => Fin.ext (by
    match c with
    | ⟨0, _⟩ => exact lhs2_0 _ _
    | ⟨1, _⟩ => exact lhs2_1 _ _
    | ⟨2, _⟩ => exact (lhs2_2 _ _).trans hk)
  have er : dot_S1x256x2048_S1x2048x1024_S1x256x1024_2_1_1_2_0_0.rhsIdx (ix3 z r e) ((contrEquiv1 dot_S1x256x2048_S1x2048x1024_S1x256x1024_2_1_1_2_0_0 2048 rfl rfl).symm k) = ix3 z k e := funext fun c => Fin.ext (by
    match c with
    | ⟨0, _⟩ => exact rhs2_0 _ _
    | ⟨1, _⟩ => exact (rhs2_1 _ _).trans hk
    | ⟨2, _⟩ => exact rhs2_2 _ _)
  rw [el, er]

/-! ## The row reductions and their broadcast back over the keys -/

/-- The reduced index (z, r) with key k put back on the last axis is (z, r, k). -/
theorem lift_ix2 (z : Fin 1) (r : Fin 256) (k : Fin (S1x256x2048.size 2)) :
    reduces_S1x256x2048_S1x256.lift (ix2 z r) k = ix3 z r (⟨k.val, k.isLt⟩ : Fin 2048) := by
  funext c; apply Fin.ext
  fin_cases c <;> rfl

/-- The row maximum at (z, r): the fold of max from −∞ over the row's entries. -/
theorem rowMax_entry (s : FVec Ideal S1x256x2048 .f32) (z : Fin 1) (r : Fin 256) :
    multiReduction .maximumf [2] S1x256 s 0xFF800000#32 reduces_S1x256x2048_S1x256 (.inl rfl) rfl (ix2 z r)
      = Cert.Attn.rowMax fun j : Fin 2048 => s (ix3 z r j) :=
  (Ideal.multiReduction_maximumf_single s 0xFF800000#32 reduces_S1x256x2048_S1x256 (.inl rfl) rfl (ix2 z r)).trans
    (congrArg (fun f => Finset.fold max Cert.Attn.negInf f (Finset.univ : Finset (Fin 2048)))
      (funext fun k => congrArg s (lift_ix2 z r k)))

/-- The row sum at (z, r): the sum of the row's entries. -/
theorem rowSum_entry (p : FVec Ideal S1x256x2048 .f32) (z : Fin 1) (r : Fin 256) :
    multiReduction .add [2] S1x256 p 0x00000000#32 reduces_S1x256x2048_S1x256 (.inl rfl) rfl (ix2 z r)
      = ∑ j : Fin 2048, p (ix3 z r j) :=
  (Ideal.multiReduction_add_single p 0x00000000#32 reduces_S1x256x2048_S1x256 (.inl rfl) rfl (ix2 z r)).trans
    (Finset.sum_congr rfl fun k _ => congrArg p (lift_ix2 z r k))

/-- A per-row value given a trailing unit axis and broadcast over the keys reads the row's value at every key. -/
theorem keepdims_entry {α : Type} (v : S1x256.Idx → α) (z : Fin 1) (r : Fin 256) (j : Fin 2048) :
    broadcastTo S1x256x2048 (shapeCast S1x256x1 v shapeCasts_S1x256_S1x256x1) broadcasts_S1x256x1_S1x256x2048 (ix3 z r j)
      = v (ix2 z r) := by
  have hz : z.val = 0 := by have := z.isLt; omega
  refine (broadcastTo_apply _ broadcasts_S1x256x1_S1x256x2048 (ix3 z r j) (ix3 z r (0 : Fin 1)) fun c => ?_).trans
    (shapeCast_apply v shapeCasts_S1x256_S1x256x1 (ix3 z r (0 : Fin 1)) (ix2 z r) ?_)
  · match c with
    | ⟨0, _⟩ => show z.val = if (1 : Nat) = 1 then 0 else z.val; rw [if_pos rfl]; exact hz
    | ⟨1, _⟩ => show r.val = if (256 : Nat) = 1 then 0 else r.val; rw [if_neg (by decide)]
    | ⟨2, _⟩ => show (0 : Nat) = if (1 : Nat) = 1 then 0 else j.val; rw [if_pos rfl]
  · rw [Shape.rowMajor_val_two, Shape.rowMajor_val_three]
    show z.val * 256 + r.val = (z.val * 256 + r.val) * 1 + 0
    omega

/-! ## The stages at an entry -/

/-- The scaled score at (z, r, j): the inner product of query row r and key row j, times 2⁻⁵. -/
theorem scores_entry (x0 : Vec Ideal S1x256x1024 .bf16) (x1 : Vec Ideal S1x2048x1024 .bf16) (z : Fin 1) (r : Fin 256) (j : Fin 2048) :
    scores x0 x1 (ix3 z r j) = (∑ e' : Fin 1024, x0 (ix3 z r e') * x1 (ix3 z j e')) * Cert.Attn.scale := by
  unfold scores
  rw [shapeCast_self, shapeCast_self]
  exact congrArg (· * Cert.Attn.scale) (matmul1_entry x0 x1 z r j)

/-- The shifted exponential at (z, r, j). -/
theorem expos_entry (s : FVec Ideal S1x256x2048 .f32) (z : Fin 1) (r : Fin 256) (j : Fin 2048) :
    expos s (ix3 z r j) = Cert.Attn.expo (fun j' : Fin 2048 => s (ix3 z r j')) j :=
  congrArg (fun m => Ideal.exp (s (ix3 z r j) - m))
    ((keepdims_entry (multiReduction .maximumf [2] S1x256 s 0xFF800000#32 reduces_S1x256x2048_S1x256 (.inl rfl) rfl) z r j).trans
      (rowMax_entry s z r))

/-- The entry divided by its row's sum, at (z, r, j). -/
theorem weights_entry (p : FVec Ideal S1x256x2048 .f32) (z : Fin 1) (r : Fin 256) (j : Fin 2048) :
    weights p (ix3 z r j) = Ideal.div (p (ix3 z r j)) (∑ j' : Fin 2048, p (ix3 z r j')) :=
  congrArg (fun m => Ideal.div (p (ix3 z r j)) m)
    ((keepdims_entry (multiReduction .add [2] S1x256 p 0x00000000#32 reduces_S1x256x2048_S1x256 (.inl rfl) rfl) z r j).trans
      (rowSum_entry p z r))

/-- The softmax weight of row (z, r) at key j. -/
theorem soft_entry (s : FVec Ideal S1x256x2048 .f32) (z : Fin 1) (r : Fin 256) (j : Fin 2048) :
    weights (expos s) (ix3 z r j) = Cert.Attn.soft (fun j' : Fin 2048 => s (ix3 z r j')) j := by
  rw [weights_entry, expos_entry]
  unfold Cert.Attn.soft
  exact congrArg (Ideal.div _) (Finset.sum_congr rfl fun j' _ => expos_entry s z r j')

/-! ## The mask bit -/

/-- A natural below 2048 as a 32-bit word, read signed, is itself. -/
theorem toInt_ofNat_small (n : Nat) (hn : n < 2048) : (BitVec.ofNat 32 n).toInt = (n : Int) := by
  have hnat : (BitVec.ofNat 32 n).toNat = n := by
    rw [BitVec.toNat_ofNat]; exact Nat.mod_eq_of_lt (by omega)
  rw [BitVec.toInt_eq_toNat_of_lt (by rw [hnat]; omega), hnat]

/-- The key counter compared "at most" (signed) with the block's first position plus the row counter, all three small,
    is the bit of j ≤ g·256 + r. -/
theorem sle_bit (g1 r j : Nat) (hg : g1 < 8) (hr : r < 256) (hj : j < 2048) :
    IntOp.cmpi .sle (BitVec.ofNat 32 j) (IntOp.addi (Scalar.muli (BitVec.ofNat 32 g1) 256#32) (BitVec.ofNat 32 r))
      = if j ≤ g1 * 256 + r then 1#1 else 0#1 := by
  have hw : IntOp.addi (Scalar.muli (BitVec.ofNat 32 g1) 256#32) (BitVec.ofNat 32 r) = BitVec.ofNat 32 (g1 * 256 + r) := by
    show BitVec.ofNat 32 g1 * BitVec.ofNat 32 256 + BitVec.ofNat 32 r = _
    rw [← BitVec.ofNat_mul, ← BitVec.ofNat_add]
  rw [hw]
  show BitVec.ofBool ((BitVec.ofNat 32 j).sle (BitVec.ofNat 32 (g1 * 256 + r))) = _
  rw [BitVec.sle_eq_decide, toInt_ofNat_small j hj, toInt_ofNat_small (g1 * 256 + r) (by omega)]
  by_cases h : j ≤ g1 * 256 + r
  · rw [if_pos h, decide_eq_true (Int.ofNat_le.mpr h)]; rfl
  · rw [if_neg h, decide_eq_false (fun h' => h (Int.ofNat_le.mp h'))]; rfl

/-- The mask bit at (z, r, j) compares the key counter j with the first position plus the row counter r. -/
theorem maskBit_entry (g1 : Nat) (z : Fin 1) (r : Fin 256) (j : Fin 2048) :
    maskBit (BitVec.ofNat 32 g1) (ix3 z r j)
      = IntOp.cmpi .sle (BitVec.ofNat 32 j.val) (IntOp.addi (Scalar.muli (BitVec.ofNat 32 g1) 256#32) (BitVec.ofNat 32 r.val)) := by
  show IntOp.cmpi .sle (iota .tc S1x256x2048 32 [2] iota_S1x256x2048_d2_w32 (ix3 z r j))
    (IntOp.addi (Scalar.muli (BitVec.ofNat 32 g1) 256#32) (iota .tc S1x256x2048 32 [1] iota_S1x256x2048_d1_w32 (ix3 z r j))) = _
  rw [iota_single_apply, iota_single_apply]

/-! ## The stored value at an entry -/

/-- The attention body's stored value at row r, column e of its [1, 256, 1024] block, for the grid point g: with i = g₁·256 + r the query's position. -/
theorem pay1_entry (g : grid1.Coords) (x0 : Vec Ideal S1x256x1024 .bf16) (x1 x2 : Vec Ideal S1x2048x1024 .bf16)
    (z : Fin 1) (r : Fin 256) (e : Fin 1024) (i : Fin 2048) (hi : i.val = (g 1).val * 256 + r.val) :
    k1_pay1 g x0 x1 x2 (ix3 z r e)
      = ∑ j : Fin 2048, Cert.Attn.causal i j (Cert.Attn.soft (fun j' => (∑ e' : Fin 1024, x0 (ix3 z r e') * x1 (ix3 z j' e')) * Cert.Attn.scale) j) * x2 (ix3 z j e) := by
  have hg : (g 1).val < 8 := (g 1).isLt
  have hs : (fun j' : Fin 2048 => scores x0 x1 (ix3 z r j'))
      = fun j' : Fin 2048 => (∑ e' : Fin 1024, x0 (ix3 z r e') * x1 (ix3 z j' e')) * Cert.Attn.scale :=
    funext fun j' => scores_entry x0 x1 z r j'
  rw [k1_pay1_eq]
  refine (matmul2_entry _ _ z r e).trans (Finset.sum_congr rfl fun j _ => ?_)
  refine congrArg₂ (· * ·) ?_ (congrFun (shapeCast_self x2 shapeCasts_S1x2048x1024_S1x2048x1024) (ix3 z j e))
  show Scalar.select (maskBit (BitVec.ofNat 32 (g 1).val) (ix3 z r j)) (weights (expos (scores x0 x1)) (ix3 z r j))
    (Ideal.ofBits .f32 0x00000000#32) = _
  rw [maskBit_entry, sle_bit _ _ _ hg r.isLt j.isLt, soft_entry, Cert.Attn.ofBits_zero, hs]
  unfold Cert.Attn.causal
  by_cases h : j.val ≤ i.val
  · rw [if_pos h, if_pos (by omega), select_one]
  · rw [if_neg h, if_neg (by omega), select_zero]

end Cert.KernelIdeal.PayAttn

end
-- ==== Proof.Region1.lean ====
/-
  The attention region's output array after its write-backs.

  The region walks 4 batches × 8 blocks of 256 query rows. At each point the body holds one block of query rows and ALL
  2048 key rows and value rows of the batch, and stores the masked-softmax-weighted sum of the value rows; the query's
  position, which the causal mask needs, is the row-block index times 256 plus the row inside the block. The 32 blocks
  tile the [4, 2048, 1024] output, so it ends as ONE function of the three arrays the region found.
-/
import proofs.«161243_j64132451663995_2_alg».proof.Proof.FrameKernelIdeal
import proofs.«161243_j64132451663995_2_alg».proof.Proof.PayAttn
import proofs.«161243_j64132451663995_2_alg».proof.Proof.Spec
import Idealize.ShloMosaic.Lib.Pipeline.Value
import Idealize.ShloMosaic.Lib.ValueIdx

noncomputable section

open scoped BigOperators

namespace Cert.KernelIdeal.Region1

open Cert.KernelIdeal Cert.KernelIdeal.Gen Cert.KernelIdeal.GenP Cert.KernelIdeal.PayAttn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- An array [4, 2048, 1024] by coordinates. -/
def cur (a : S4x2048x1024.Idx → Elt Ideal .bf16) : Cert.Attn.C3 := fun b s e => (a (ix3 b s e) : EReal)

/-- Masked attention of three arrays, as an array. -/
def attnArr (q k v : S4x2048x1024.Idx → Elt Ideal .bf16) : S4x2048x1024.Idx → Elt Ideal .f32 :=
  fun i => Cert.Attn.attn (cur q) (cur k) (cur v) (i 0) (i 1) (i 2)

theorem hz3 : (![0, 0, 0] : Fin 3 → Nat) = fun _ => 0 := funext fun a => by fin_cases a <;> rfl

/-- The body's stored value at an index of its block is the attention array's entry, when the three loaded blocks are
    the arrays' blocks: the query block's row is row i₁ of batch i₀, the key and value blocks are all of batch i₀, and
    the query's position is the grid's second coordinate times 256 plus the row inside the block. -/
theorem attn_of_blocks (Q K W : S4x2048x1024.Idx → Elt Ideal .bf16) (g : grid1.Coords)
    (x0 : Vec Ideal S1x256x1024 .bf16) (x1 x2 : Vec Ideal S1x2048x1024 .bf16) (y : S1x256x1024.Idx) (i : S4x2048x1024.Idx)
    (hq : ∀ e' : Fin 1024, x0 (ix3 (y 0) (y 1) e') = Q (ix3 (i 0) (i 1) e'))
    (hk : ∀ (j : Fin 2048) (e' : Fin 1024), x1 (ix3 (y 0) j e') = K (ix3 (i 0) j e'))
    (hv : ∀ j : Fin 2048, x2 (ix3 (y 0) j (y 2)) = W (ix3 (i 0) j (i 2)))
    (hi1 : (i 1).val = (g 1).val * 256 + (y 1).val) :
    k1_pay1 g x0 x1 x2 y = attnArr Q K W i := by
  refine (congrArg (k1_pay1 g x0 x1 x2) (eq_ix3 y)).trans ?_
  refine (pay1_entry g x0 x1 x2 (y 0) (y 1) (y 2) (i 1) hi1).trans ?_
  have hs : (fun j' : Fin 2048 => (∑ e' : Fin 1024, (x0 (ix3 (y 0) (y 1) e') : EReal) * (x1 (ix3 (y 0) j' e') : EReal)) * Cert.Attn.scale)
      = Cert.Attn.score (cur Q) (cur K) (i 0) (i 1) := by
    funext j'
    unfold Cert.Attn.score cur
    exact congrArg (· * Cert.Attn.scale) (Finset.sum_congr rfl fun e' _ => by rw [hq e', hk j' e'])
  rw [hs]
  unfold attnArr Cert.Attn.attn
  refine Finset.sum_congr rfl fun j _ => ?_
  rw [hv j]
  rfl

/-- The printed index maps over the thirty-two grid points: the query and output blocks move together on the batch and
    row-block axes, the key and value blocks follow the batch only, every other block index is zero, and the grid's
    second coordinate IS the output's row-block index. -/
theorem idx_facts3 : ∀ t : Fin cfg1.N, win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (2 : Fin 3) = 0
    ∧ (grid1.coords t 1).val = win1_3.index t (1 : Fin 3) :=
  (by decide +kernel : ∀ t : Fin grid1.N, _)

/-- Every (batch, row block) pair is some grid point's. -/
theorem idx_onto3 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What grid point t writes back is block t of the attention array. -/
theorem flushed3_eq (c : Dev nD) (t : Fin cfg1.N) :
    (dat1 V c).flushed 3 t = ((cfg1.win 3).blk t).view.read (Elt Ideal) (attnArr (V c main_v5) (V c main_v6) (V c main_v7)) := by
  show (cfg1.win 3).cut (grid1.coords t) ((dat1 V c).after 3 t) = _
  rw [after1_3]
  unfold out1_3
  rw [View.canon_unit_zero hz3]
  simp only [View.ld_unit_zero (S := S1x256x1024) hz3, View.ld_unit_zero (S := S1x2048x1024) hz3]
  obtain ⟨e0, e1, e2, e3, e4, e5, e6, e7, e8, e9, e10⟩ := idx_facts3 t
  funext y
  refine attn_of_blocks (V c main_v5) (V c main_v6) (V c main_v7) (grid1.coords t) (iblk1 V c 0 t) (iblk1 V c 1 t) (iblk1 V c 2 t) y
    (((cfg1.win 3).blk t).view.emb y) ?_ ?_ ?_ ?_
  · intro e'
    show V c main_v5 (((cfg1.win 0).blk t).view.emb (ix3 (y 0) (y 1) e'))
      = V c main_v5 (ix3 ((((cfg1.win 3).blk t).view.emb y) 0) ((((cfg1.win 3).blk t).view.emb y) 1) e')
    refine congrArg (V c main_v5) ?_
    funext a; apply Fin.ext
    match a with
    | ⟨0, _⟩ => show win1_0.index t (0 : Fin 3) * 1 + 1 * (y 0).val = win1_3.index t (0 : Fin 3) * 1 + 1 * (y 0).val; omega
    | ⟨1, _⟩ => show win1_0.index t (1 : Fin 3) * 256 + 1 * (y 1).val = win1_3.index t (1 : Fin 3) * 256 + 1 * (y 1).val; omega
    | ⟨2, _⟩ => show win1_0.index t (2 : Fin 3) * 1024 + 1 * e'.val = e'.val; omega
  · intro j e'
    show V c main_v6 (((cfg1.win 1).blk t).view.emb (ix3 (y 0) j e')) = V c main_v6 (ix3 ((((cfg1.win 3).blk t).view.emb y) 0) j e')
    refine congrArg (V c main_v6) ?_
    funext a; apply Fin.ext
    match a with
    | ⟨0, _⟩ => show win1_1.index t (0 : Fin 3) * 1 + 1 * (y 0).val = win1_3.index t (0 : Fin 3) * 1 + 1 * (y 0).val; omega
    | ⟨1, _⟩ => show win1_1.index t (1 : Fin 3) * 2048 + 1 * j.val = j.val; omega
    | ⟨2, _⟩ => show win1_1.index t (2 : Fin 3) * 1024 + 1 * e'.val = e'.val; omega
  · intro j
    show V c main_v7 (((cfg1.win 2).blk t).view.emb (ix3 (y 0) j (y 2)))
      = V c main_v7 (ix3 ((((cfg1.win 3).blk t).view.emb y) 0) j ((((cfg1.win 3).blk t).view.emb y) 2))
    refine congrArg (V c main_v7) ?_
    funext a; apply Fin.ext
    match a with
    | ⟨0, _⟩ => show win1_2.index t (0 : Fin 3) * 1 + 1 * (y 0).val = win1_3.index t (0 : Fin 3) * 1 + 1 * (y 0).val; omega
    | ⟨1, _⟩ => show win1_2.index t (1 : Fin 3) * 2048 + 1 * j.val = j.val; omega
    | ⟨2, _⟩ => show win1_2.index t (2 : Fin 3) * 1024 + 1 * (y 2).val = win1_3.index t (2 : Fin 3) * 1024 + 1 * (y 2).val; omega
  · show win1_3.index t (1 : Fin 3) * 256 + 1 * (y 1).val = (grid1.coords t 1).val * 256 + (y 1).val
    omega

/-- An index of the array is in point t's block iff each coordinate is in the block's range on its axis. -/
theorem mem_blk3 (t : Fin cfg1.N) (i : S4x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v8).slice (win1_3.rect t)).set ↔ _
  rw [View.set_slice_whole, Rect.mem_set_unit]
  exact Iff.rfl

/-- Entry (b, i, e) lies in the block of the point whose batch is b and whose row block is i / 256. -/
theorem cover3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto3 ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- After the thirty-two write-backs the output array is the attention array of the three arrays the region found. -/
theorem arr3 (c : Dev nD) : (dat1 V c).arrAt 3 cfg1.N = attnArr (V c main_v5) (V c main_v6) (V c main_v7) :=
  (dat1 V c).arrAt_eq_of_cover 3 _ (fun t _ => flushed3_eq V c t) cover3

end Cert.KernelIdeal.Region1

end
-- ==== Proof.HostGlue.lean ====
/-
  The host operations around the two regions, read as values.

  Before the projection region: each weight is passed through a change of float format (the identity on the extended
  reals) and the activations [4, 2048, 1024] are reshaped to [8192, 1024]. Between the regions: each of the projection
  region's three output arrays [8192, 1024] is reshaped to [4, 2048, 1024]. A reshape keeps every element at its
  row-major position.
-/
import proofs.«161243_j64132451663995_2_alg».proof.Proof.FrameKernelIdeal
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Cert.KernelIdeal.GenP
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The projection region finds the activations reshaped to rows. -/
theorem V1_v3 (c : Dev nD) : (V1 m ρ c main_v3 : S8192x1024.Idx → Elt Ideal .f32)
    = shapeCast S8192x1024 (m ((c : Thread nD τ).loc main_arg0)) shapeCasts_S4x2048x1024_S8192x1024 := by
  dsimp only [V1, W1, hostOps0]; after_results; rfl

/-- It finds the query weight as launched. -/
theorem V1_v0 (c : Dev nD) : (V1 m ρ c main_v0 : S1024x1024.Idx → Elt Ideal .bf16)
    = (m ((c : Thread nD τ).loc main_arg1) : S1024x1024.Idx → Elt Ideal .f32) := by
  dsimp only [V1, W1, hostOps0]; after_results; rfl

/-- It finds the key weight as launched. -/
theorem V1_v1 (c : Dev nD) : (V1 m ρ c main_v1 : S1024x1024.Idx → Elt Ideal .bf16)
    = (m ((c : Thread nD τ).loc main_arg2) : S1024x1024.Idx → Elt Ideal .f32) := by
  dsimp only [V1, W1, hostOps0]; after_results; rfl

/-- It finds the value weight as launched. -/
theorem V1_v2 (c : Dev nD) : (V1 m ρ c main_v2 : S1024x1024.Idx → Elt Ideal .bf16)
    = (m ((c : Thread nD τ).loc main_arg3) : S1024x1024.Idx → Elt Ideal .f32) := by
  dsimp only [V1, W1, hostOps0]; after_results; rfl

/-- The attention region finds the projection region's query array, reshaped. -/
theorem V3_v5 (c : Dev nD) : (V3 m ρ c main_v5 : S4x2048x1024.Idx → Elt Ideal .bf16)
    = shapeCast S4x2048x1024 ((dat0 (V1 m ρ) c).arrAt 4 cfg0.N) shapeCasts_S8192x1024_S4x2048x1024 := by
  dsimp only [V3, W3, hostOps1]; after_results
  exact congrArg (fun a => shapeCast S4x2048x1024 a shapeCasts_S8192x1024_S4x2048x1024) (W2_arr m ρ c 4)

/-- It finds the key array, reshaped. -/
theorem V3_v6 (c : Dev nD) : (V3 m ρ c main_v6 : S4x2048x1024.Idx → Elt Ideal .bf16)
    = shapeCast S4x2048x1024 ((dat0 (V1 m ρ) c).arrAt 5 cfg0.N) shapeCasts_S8192x1024_S4x2048x1024 := by
  dsimp only [V3, W3, hostOps1]; after_results
  exact congrArg (fun a => shapeCast S4x2048x1024 a shapeCasts_S8192x1024_S4x2048x1024) (W2_arr m ρ c 5)

/-- It finds the value array, reshaped. -/
theorem V3_v7 (c : Dev nD) : (V3 m ρ c main_v7 : S4x2048x1024.Idx → Elt Ideal .bf16)
    = shapeCast S4x2048x1024 ((dat0 (V1 m ρ) c).arrAt 6 cfg0.N) shapeCasts_S8192x1024_S4x2048x1024 := by
  dsimp only [V3, W3, hostOps1]; after_results
  exact congrArg (fun a => shapeCast S4x2048x1024 a shapeCasts_S8192x1024_S4x2048x1024) (W2_arr m ρ c 6)

end Cert.KernelIdeal.Glue

end
-- ==== Proof.Reshape.lean ====
/-
  The two reshapes around the projection cancel.

  The activations [4, 2048, 1024] are viewed as 8192 rows, multiplied by a weight, and the product is viewed again as
  [4, 2048, 1024]. Row-major positions are kept by both views, and row b·2048 + s of the flat array is row (b, s), so the
  entry (b, s, e) of the result is the sum over d of x(b, s, d) · w(d, e): the projection of the specification.
-/
import proofs.«161243_j64132451663995_2_alg».proof.Proof.Region0
import proofs.«161243_j64132451663995_2_alg».proof.Proof.Spec
import Idealize.ShloMosaic.Lib.Pipeline.Value
import Idealize.ShloMosaic.Lib.ValueIdx

noncomputable section

open scoped BigOperators

namespace Cert.KernelIdeal.Reshape

open Cert.KernelIdeal Cert.KernelIdeal.Gen Idealize.ShloMosaic Idealize.ShloMosaic.ValueIdx

/-- Flat row b·2048 + s, column d, of the reshaped activations is x(b, s, d). -/
theorem rows_entry (X : S4x2048x1024.Idx → Elt Ideal .f32) (b : Fin 4) (s : Fin 2048) (d : Fin 1024) (hr : b.val * 2048 + s.val < 8192) :
    shapeCast S8192x1024 X shapeCasts_S4x2048x1024_S8192x1024 (ix2 (⟨b.val * 2048 + s.val, hr⟩ : Fin 8192) d) = X (ix3 b s d) := by
  refine shapeCast_apply X shapeCasts_S4x2048x1024_S8192x1024 _ (ix3 b s d) ?_
  rw [Shape.rowMajor_val_two, Shape.rowMajor_val_three]
  rfl

/-- Entry (b, s, e) of the product viewed as [4, 2048, 1024] is the projection's entry. -/
theorem proj_entry (X : S4x2048x1024.Idx → Elt Ideal .f32) (W : S1024x1024.Idx → Elt Ideal .bf16) (b : Fin 4) (s : Fin 2048) (e : Fin 1024) :
    shapeCast S4x2048x1024 (Region0.rowsTimes (shapeCast S8192x1024 X shapeCasts_S4x2048x1024_S8192x1024) W)
        shapeCasts_S8192x1024_S4x2048x1024 (ix3 b s e)
      = Cert.Attn.proj X W b s e := by
  have hr : b.val * 2048 + s.val < 8192 := by have := b.isLt; have := s.isLt; omega
  refine (shapeCast_apply _ shapeCasts_S8192x1024_S4x2048x1024 (ix3 b s e) (ix2 (⟨b.val * 2048 + s.val, hr⟩ : Fin 8192) e) ?_).trans ?_
  · rw [Shape.rowMajor_val_two, Shape.rowMajor_val_three]
    rfl
  · unfold Region0.rowsTimes Cert.Attn.proj
    refine Finset.sum_congr rfl fun d _ => ?_
    exact congrArg (fun v : EReal => v * (W (ix2 d e) : EReal)) (rows_entry X b s d hr)

end Cert.KernelIdeal.Reshape

end
-- ==== Proof.KernelRun.lean ====
/-
  The idealized kernel's run with its result named.

  The program is two grid regions among host operations. Its frame run already carries, at the last boundary, the
  contents of every buffer that outlives the regions; read at the result buffer they are what the attention region's
  write-backs leave in its output array, and read at the four arguments they are the launch contents.
-/
import proofs.«161243_j64132451663995_2_alg».proof.Proof.FrameKernelIdeal

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the four arguments end as launched. -/
theorem run_main : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The result buffer at the last boundary is the attention region's output array after its write-backs. -/
theorem W4_result (c : Dev nD) :
    W4 m ρ c (Proc.devRef .tc main_v8) = (dat1 (V3 m ρ) c).arrAt 3 cfg1.N :=
  W4_arr m ρ c 3

end Cert.KernelIdeal.KRun

end
-- ==== Proof.KernelValue.lean ====
/-
  The idealized kernel's result as one function of its four arguments.

  The attention region's output array is the masked attention of the three arrays it finds; each of those is a reshape of
  one output array of the projection region, which is the reshaped activations times one weight; the two reshapes cancel,
  so each is a projection of the launch arguments and the result is the specification.
-/
import proofs.«161243_j64132451663995_2_alg».proof.Proof.Region0
import proofs.«161243_j64132451663995_2_alg».proof.Proof.Region1
import proofs.«161243_j64132451663995_2_alg».proof.Proof.HostGlue
import proofs.«161243_j64132451663995_2_alg».proof.Proof.Reshape
import proofs.«161243_j64132451663995_2_alg».proof.Proof.KernelRun
import proofs.«161243_j64132451663995_2_alg».proof.Proof.Spec

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg)

/-- The query array the attention region finds is, by coordinates, the query projection of the arguments. -/
theorem cur_q (c : Dev nD) :
    Region1.cur (V3 m ρ c main_v5) = Cert.Attn.proj (m ((c : Thread nD τ).loc main_arg0)) (m ((c : Thread nD τ).loc main_arg1)) := by
  rw [Glue.V3_v5 m ρ c, Region0.arr4 (V1 m ρ) c, Glue.V1_v3 m ρ c, Glue.V1_v0 m ρ c]
  funext b s e
  exact Reshape.proj_entry _ _ b s e

/-- The key array likewise. -/
theorem cur_k (c : Dev nD) :
    Region1.cur (V3 m ρ c main_v6) = Cert.Attn.proj (m ((c : Thread nD τ).loc main_arg0)) (m ((c : Thread nD τ).loc main_arg2)) := by
  rw [Glue.V3_v6 m ρ c, Region0.arr5 (V1 m ρ) c, Glue.V1_v3 m ρ c, Glue.V1_v1 m ρ c]
  funext b s e
  exact Reshape.proj_entry _ _ b s e

/-- The value array likewise. -/
theorem cur_v (c : Dev nD) :
    Region1.cur (V3 m ρ c main_v7) = Cert.Attn.proj (m ((c : Thread nD τ).loc main_arg0)) (m ((c : Thread nD τ).loc main_arg3)) := by
  rw [Glue.V3_v7 m ρ c, Region0.arr6 (V1 m ρ) c, Glue.V1_v3 m ρ c, Glue.V1_v2 m ρ c]
  funext b s e
  exact Reshape.proj_entry _ _ b s e

/-- The result buffer at the last boundary is the specification of the four argument arrays. -/
theorem result_eq (c : Dev nD) :
    W4 m ρ c (Proc.devRef .tc main_v8)
      = Cert.Attn.result (m ((c : Thread nD τ).loc main_arg0)) (m ((c : Thread nD τ).loc main_arg1))
          (m ((c : Thread nD τ).loc main_arg2)) (m ((c : Thread nD τ).loc main_arg3)) := by
  rw [KRun.W4_result m ρ c, Region1.arr3 (V3 m ρ) c]
  unfold Region1.attnArr Cert.Attn.result
  rw [cur_q m ρ c, cur_k m ρ c, cur_v m ρ c]

/-- The idealized kernel's run: every weakly fair execution terminates without a fault, the result array ends at the
    specification of the launch contents of the four arguments, and the arguments end unchanged. -/
theorem run : θ_run defs (onTc (τ := τ) (main (F := Ideal))) ⟨m, fun _ => 0, ρ⟩ (fun r => ∀ c : Dev nD,
      r.2.mem ((c.tc : Thread nD τ).loc main_v8)
        = Cert.Attn.result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (KRun.run_main m ρ)

end Cert.KernelIdeal.KValue

end
-- ==== Proof.RefValue.lean ====
/-
  The reference program, read one element at a time, is the specification: every stage of the printed program, at an index
  given by its coordinates, is the matching stage of the mathematical description (projections, scaled scores, row maxima,
  shifted exponentials, softmax weights, the causal mask, the masked weights, the final contraction against the values).
-/
import proofs.«161243_j64132451663995_2_alg».proof.Proof.Gen.ReferenceIdeal.Read
import proofs.«161243_j64132451663995_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The activations' array type. -/
abbrev X3 := (⟨S4x2048x1024, .f32⟩ : BufTy).Contents (Elt Ideal)
/-- A weight matrix's array type. -/
abbrev X2 := (⟨S1024x1024, .f32⟩ : BufTy).Contents (Elt Ideal)

/-! ## The three projections -/

/-- The left operand's index of a projection's entry (b, s, e) at feature d is (b, s, d). -/
theorem lidx_v0 (b : Fin 4) (s : Fin 2048) (e d : Fin 1024) : lidx_main_v0 (ix3 b s e) d = ix3 b s d := by
  funext a; apply Fin.ext
  match a with
  | ⟨0, _⟩ => rfl
  | ⟨1, _⟩ => rfl
  | ⟨2, _⟩ => rfl
/-- The weight's index of a projection's entry (b, s, e) at feature d is (d, e). -/
theorem ridx_v0 (b : Fin 4) (s : Fin 2048) (e d : Fin 1024) : ridx_main_v0 (ix3 b s e) d = ix2 d e := by
  funext a; apply Fin.ext
  match a with
  | ⟨0, _⟩ => rfl
  | ⟨1, _⟩ => rfl

/-- The first projection at (b, s, e). -/
theorem v0_ix3 (x0 : X3) (x1 : X2) (b : Fin 4) (s : Fin 2048) (e : Fin 1024) :
    val_main_v0 (F := Ideal) x0 x1 (ix3 b s e) = Cert.Attn.proj x0 x1 b s e := by
  rw [val_main_v0_apply]
  refine Finset.sum_congr rfl fun d _ => ?_
  rw [lidx_v0, ridx_v0]
/-- The second projection at (b, s, e). -/
theorem v1_ix3 (x0 : X3) (x2 : X2) (b : Fin 4) (s : Fin 2048) (e : Fin 1024) :
    val_main_v1 (F := Ideal) x0 x2 (ix3 b s e) = Cert.Attn.proj x0 x2 b s e := by
  rw [val_main_v1_apply]
  refine Finset.sum_congr rfl fun d _ => ?_
  exact congrArg₂ (· * ·) (congrArg x0 (lidx_v0 b s e d)) (congrArg x2 (ridx_v0 b s e d))
/-- The third projection at (b, s, e). -/
theorem v2_ix3 (x0 : X3) (x3 : X2) (b : Fin 4) (s : Fin 2048) (e : Fin 1024) :
    val_main_v2 (F := Ideal) x0 x3 (ix3 b s e) = Cert.Attn.proj x0 x3 b s e := by
  rw [val_main_v2_apply]
  refine Finset.sum_congr rfl fun d _ => ?_
  exact congrArg₂ (· * ·) (congrArg x0 (lidx_v0 b s e d)) (congrArg x3 (ridx_v0 b s e d))

/-! ## The scaled scores -/

/-- The query's index of score (b, i, j) at feature k is (b, i, k). -/
theorem lidx_v3 (b : Fin 4) (i j : Fin 2048) (k : Fin 1024) : lidx_main_v3 (ix3 b i j) k = ix3 b i k := by
  funext a; apply Fin.ext
  match a with
  | ⟨0, _⟩ => rfl
  | ⟨1, _⟩ => rfl
  | ⟨2, _⟩ => rfl
/-- The key's index of score (b, i, j) at feature k is (b, j, k). -/
theorem ridx_v3 (b : Fin 4) (i j : Fin 2048) (k : Fin 1024) : ridx_main_v3 (ix3 b i j) k = ix3 b j k := by
  funext a; apply Fin.ext
  match a with
  | ⟨0, _⟩ => rfl
  | ⟨1, _⟩ => rfl
  | ⟨2, _⟩ => rfl

/-- The unscaled score at (b, i, j): the inner product of query i and key j. -/
theorem v3_ix3 (x0 : X3) (x1 x2 : X2) (b : Fin 4) (i j : Fin 2048) :
    val_main_v3 (F := Ideal) x0 x1 x2 (ix3 b i j)
      = ∑ e : Fin 1024, Cert.Attn.proj x0 x1 b i e * Cert.Attn.proj x0 x2 b j e := by
  rw [val_main_v3_apply]
  refine Finset.sum_congr rfl fun k _ => ?_
  rw [lidx_v3, ridx_v3, v0_ix3, v1_ix3]

/-- The divisor is the square root of the word 1024.0 at every index. -/
theorem v5_at (i : S4x2048x2048.Idx) :
    val_main_v5 (F := Ideal) i = Ideal.sqrt (Ideal.ofBits .f32 0x44800000#32) := by
  rw [val_main_v5_apply, val_main_v4_apply, val_main_cst_apply, Ideal.hostUnary_sqrt_def, Ideal.ofBits_def]

/-- The scaled score at (b, i, j). -/
theorem v6_ix3 (x0 : X3) (x1 x2 : X2) (b : Fin 4) (i j : Fin 2048) :
    val_main_v6 (F := Ideal) x0 x1 x2 (ix3 b i j)
      = Cert.Attn.score (Cert.Attn.proj x0 x1) (Cert.Attn.proj x0 x2) b i j := by
  rw [val_main_v6_apply, Ideal.hostDivf_def, v5_at, Cert.Attn.div_sqrt_1024, v3_ix3]
  rfl

/-! ## The row maxima -/

/-- The reduced index (b, i) with key k put back on the last axis is (b, i, k). -/
theorem lift_ix2 (h : S4x2048x2048.Reduces [2] S4x2048) (b : Fin 4) (i : Fin 2048) (k : Fin (S4x2048x2048.size 2)) :
    h.lift (ix2 b i) k = ix3 b i (⟨k.val, k.isLt⟩ : Fin 2048) := by
  funext c; apply Fin.ext
  fin_cases c <;> rfl

/-- The maximum-reduce over the keys at (b, i) is the row's maximum folded from −∞. -/
theorem v7_ix2 (x0 : X3) (x1 x2 : X2) (b : Fin 4) (i : Fin 2048) :
    val_main_v7 (F := Ideal) x0 x1 x2 (ix2 b i)
      = Cert.Attn.rowMax (Cert.Attn.score (Cert.Attn.proj x0 x1) (Cert.Attn.proj x0 x2) b i) := by
  have h : S4x2048x2048.Reduces [2] S4x2048 := by decide
  unfold val_main_v7
  rw [Host.reduce_eq_fold_single FloatOps.maximumf _ _ reducesTo_S4x2048x2048_S4x2048_d2 h h_S_]
  have hf : (val_main_v6 (F := Ideal) x0 x1 x2 ∘ h.lift (ix2 b i))
      = fun k : Fin 2048 => Cert.Attn.score (Cert.Attn.proj x0 x1) (Cert.Attn.proj x0 x2) b i k :=
    funext fun k => (congrArg (val_main_v6 (F := Ideal) x0 x1 x2) (lift_ix2 h b i k)).trans (v6_ix3 x0 x1 x2 b i _)
  exact congrArg (fun f => Finset.fold max Cert.Attn.negInf f (Finset.univ : Finset (Fin 2048))) hf

/-- The row maximum at (b, i): starting again from −∞ changes nothing. -/
theorem v9_ix2 (x0 : X3) (x1 x2 : X2) (b : Fin 4) (i : Fin 2048) :
    val_main_v9 (F := Ideal) x0 x1 x2 (ix2 b i)
      = Cert.Attn.rowMax (Cert.Attn.score (Cert.Attn.proj x0 x1) (Cert.Attn.proj x0 x2) b i) := by
  rw [val_main_v9_apply, val_main_v8_apply, val_main_cst_1_apply, v7_ix2, Ideal.maximumf_def, Ideal.ofBits_def]
  exact Cert.Attn.max_negInf _

/-! ## The shifted exponentials -/

/-- Broadcasting the row maxima back over the keys reads (b, i) at every key. -/
theorem idx_v10_v11 (b : Fin 4) (i j : Fin 2048) : idx_main_v10 (idx_main_v11 (ix3 b i j)) = ix2 b i := by
  funext a; apply Fin.ext
  match a with
  | ⟨0, _⟩ => rfl
  | ⟨1, _⟩ => rfl

/-- The shifted exponential at (b, i, j). -/
theorem v13_ix3 (x0 : X3) (x1 x2 : X2) (b : Fin 4) (i j : Fin 2048) :
    val_main_v13 (F := Ideal) x0 x1 x2 (ix3 b i j)
      = Cert.Attn.expo (Cert.Attn.score (Cert.Attn.proj x0 x1) (Cert.Attn.proj x0 x2) b i) j := by
  rw [val_main_v13_apply, val_main_v12_apply, val_main_v11_apply, val_main_v10_apply, idx_v10_v11, v9_ix2, v6_ix3,
    Ideal.hostUnary_exp_def, Ideal.subf_def]
  rfl

/-! ## The softmax weights -/

/-- The sum's operand index of row (b, i) at key k is (b, i, k). -/
theorem idx_v14 (b : Fin 4) (i k : Fin 2048) : idx_main_v14 (ix2 b i) k = ix3 b i k := by
  funext a; apply Fin.ext
  match a with
  | ⟨0, _⟩ => rfl
  | ⟨1, _⟩ => rfl
  | ⟨2, _⟩ => rfl

/-- The row's normaliser at (b, i): the sum of the shifted exponentials, the sum's start 0 adding nothing. -/
theorem v14_ix2 (x0 : X3) (x1 x2 : X2) (b : Fin 4) (i : Fin 2048) :
    val_main_v14 (F := Ideal) x0 x1 x2 (ix2 b i)
      = ∑ j' : Fin 2048, Cert.Attn.expo (Cert.Attn.score (Cert.Attn.proj x0 x1) (Cert.Attn.proj x0 x2) b i) j' := by
  rw [val_main_v14_apply, val_main_cst_2_apply, Ideal.ofBits_def, Cert.Attn.ofBits_zero, zero_add]
  refine Finset.sum_congr rfl fun k _ => ?_
  rw [idx_v14, v13_ix3]

/-- Broadcasting the normalisers back over the keys reads (b, i) at every key. -/
theorem idx_v15_v16 (b : Fin 4) (i j : Fin 2048) : idx_main_v15 (idx_main_v16 (ix3 b i j)) = ix2 b i := by
  funext a; apply Fin.ext
  match a with
  | ⟨0, _⟩ => rfl
  | ⟨1, _⟩ => rfl

/-- The softmax weight at (b, i, j). -/
theorem v17_ix3 (x0 : X3) (x1 x2 : X2) (b : Fin 4) (i j : Fin 2048) :
    val_main_v17 (F := Ideal) x0 x1 x2 (ix3 b i j)
      = Cert.Attn.soft (Cert.Attn.score (Cert.Attn.proj x0 x1) (Cert.Attn.proj x0 x2) b i) j := by
  rw [val_main_v17_apply, val_main_v16_apply, val_main_v15_apply, idx_v15_v16, v14_ix2, v13_ix3, Ideal.hostDivf_def]
  rfl

/-! ## The causal mask -/

/-- A natural below 2048 as a 32-bit word, read signed, is itself. -/
theorem toInt_ofNat_small (n : Nat) (hn : n < 2048) : (BitVec.ofNat 32 n).toInt = (n : Int) := by
  have hnat : (BitVec.ofNat 32 n).toNat = n := by
    rw [BitVec.toNat_ofNat]; exact Nat.mod_eq_of_lt (by omega)
  rw [BitVec.toInt_eq_toNat_of_lt (by rw [hnat]; omega), hnat]

/-- The row counter plus zero compared "at least" (signed) with the column counter, both below 2048, is the bit of j ≤ i. -/
theorem sge_bit (i j : Nat) (hi : i < 2048) (hj : j < 2048) :
    IntOp.cmpi .sge (IntOp.addi (BitVec.ofNat 32 i) 0#32) (BitVec.ofNat 32 j) = if j ≤ i then 1#1 else 0#1 := by
  unfold IntOp.addi
  rw [BitVec.add_zero]
  show BitVec.ofBool ((BitVec.ofNat 32 j).sle (BitVec.ofNat 32 i)) = _
  rw [BitVec.sle_eq_decide, toInt_ofNat_small i hi, toInt_ofNat_small j hj]
  by_cases h : j ≤ i
  · rw [if_pos h, decide_eq_true (Int.ofNat_le.mpr h)]; rfl
  · rw [if_neg h, decide_eq_false (fun h' => h (Int.ofNat_le.mp h'))]; rfl

/-- Broadcasting the lower-triangular matrix over the batches reads (i, j) in every batch. -/
theorem idx_v20_v21 (b : Fin 4) (i j : Fin 2048) : idx_main_v20 (idx_main_v21 (ix3 b i j)) = ix2 i j := by
  funext a; apply Fin.ext
  match a with
  | ⟨0, _⟩ => rfl
  | ⟨1, _⟩ => rfl

/-- The lower-triangular matrix of ones at (i, j): 1 when j ≤ i, else 0. -/
theorem v19_ix2 (i j : Fin 2048) :
    val_main_v19 (F := Ideal) (ix2 i j) = if j.val ≤ i.val then (1 : EReal) else 0 := by
  rw [val_main_v19_apply, val_main_call0_v4_apply, val_main_call0_v2_apply, val_main_call0_v0_apply,
    val_main_call0_v1_apply, val_main_call0_c_apply, val_main_call0_v3_apply, val_main_v18_apply, val_main_cst_3_apply,
    val_main_call0_v5_apply, val_main_call0_cst_apply, Ideal.ofBits_def, Ideal.ofBits_def, Cert.Attn.ofBits_one,
    Cert.Attn.ofBits_zero]
  show Scalar.select (IntOp.cmpi .sge (IntOp.addi (BitVec.ofNat 32 i.val) 0#32) (BitVec.ofNat 32 j.val)) (1 : EReal) 0 = _
  rw [sge_bit i.val j.val i.isLt j.isLt]
  by_cases h : j.val ≤ i.val
  · rw [if_pos h, if_pos h, select_one]
  · rw [if_neg h, if_neg h, select_zero]

/-- The mask at (b, i, j). -/
theorem v21_ix3 (b : Fin 4) (i j : Fin 2048) :
    val_main_v21 (F := Ideal) (ix3 b i j) = if j.val ≤ i.val then (1 : EReal) else 0 := by
  rw [val_main_v21_apply, val_main_v20_apply, idx_v20_v21, v19_ix2]

/-! ## The masked weights and the result -/

/-- The masked softmax weight at (b, i, j): w · 1 = w where j ≤ i, w · 0 = 0 elsewhere. -/
theorem v22_ix3 (x0 : X3) (x1 x2 : X2) (b : Fin 4) (i j : Fin 2048) :
    val_main_v22 (F := Ideal) x0 x1 x2 (ix3 b i j)
      = Cert.Attn.causal i j (Cert.Attn.soft (Cert.Attn.score (Cert.Attn.proj x0 x1) (Cert.Attn.proj x0 x2) b i) j) := by
  rw [val_main_v22_apply, v17_ix3, v21_ix3, Ideal.mulf_def]
  unfold Cert.Attn.causal
  by_cases h : j.val ≤ i.val
  · rw [if_pos h, if_pos h, mul_one]
  · rw [if_neg h, if_neg h, mul_zero]

/-- The weights' index of result (b, i, e) at key k is (b, i, k). -/
theorem lidx_v23 (b : Fin 4) (i : Fin 2048) (e : Fin 1024) (k : Fin 2048) : lidx_main_v23 (ix3 b i e) k = ix3 b i k := by
  funext a; apply Fin.ext
  match a with
  | ⟨0, _⟩ => rfl
  | ⟨1, _⟩ => rfl
  | ⟨2, _⟩ => rfl
/-- The values' index of result (b, i, e) at key k is (b, k, e). -/
theorem ridx_v23 (b : Fin 4) (i : Fin 2048) (e : Fin 1024) (k : Fin 2048) : ridx_main_v23 (ix3 b i e) k = ix3 b k e := by
  funext a; apply Fin.ext
  match a with
  | ⟨0, _⟩ => rfl
  | ⟨1, _⟩ => rfl
  | ⟨2, _⟩ => rfl

/-- The reference's result, as the generated stage function of the four arguments, is the specification. -/
theorem ref_eq (x0 : (⟨S4x2048x1024, .f32⟩ : BufTy).Contents (Elt Ideal)) (x1 x2 x3 : (⟨S1024x1024, .f32⟩ : BufTy).Contents (Elt Ideal)) :
    val_main_v23 (F := Ideal) x0 x1 x2 x3 = Cert.Attn.result x0 x1 x2 x3 := by
  funext i
  obtain ⟨b, q, e, rfl⟩ : ∃ (b : Fin 4) (q : Fin 2048) (e : Fin 1024), i = ix3 b q e := ⟨i 0, i 1, i 2, eq_ix3 i⟩
  rw [Cert.Attn.result_ix3, val_main_v23_apply]
  unfold Cert.Attn.attn
  refine Finset.sum_congr rfl fun k _ => ?_
  rw [lidx_v23, ridx_v23, v22_ix3, v2_ix3]

end Cert.ReferenceIdeal.RefValue

end
-- ==== Proof.lean ====
/-
  Causal attention after three linear projections: a two-region kernel against its jnp reference, on the extended reals.

  The kernel projects the activations to queries, keys and values in one grid region (sixteen row blocks, bf16 operands:
  a change of float format is the identity on the extended reals), reshapes, and in a second region computes, per batch
  and block of 256 queries, the softmax over ALL keys of the scores scaled by 2⁻⁵, zeroes the weights of later keys and
  contracts them with the values. The reference does the same with whole-array operations, dividing the scores by
  √1024 and multiplying the weights by a lower-triangular matrix of ones. Both are the one function `Cert.Attn.result` of
  the four arguments (Proof/Spec.lean): the kernel by Proof/KernelValue.lean (its regions' write-backs read as whole
  arrays), the reference by Proof/RefValue.lean (stage by stage). The laws that join them — x / 32 = x · 2⁻⁵, w · 1 = w,
  w · 0 = 0, max ⊥ m = m, 0 + s = s — hold on every extended real, so the precondition is never opened.
  The ideal pass rewrote nothing, so the kernel's idealization is its own text and `preserves` is trivial.
-/
import proofs.«161243_j64132451663995_2_alg».proof.Defs
import proofs.«161243_j64132451663995_2_alg».proof.Proof.Gen.Kernel
import proofs.«161243_j64132451663995_2_alg».proof.Proof.Gen.KernelIdeal
import proofs.«161243_j64132451663995_2_alg».proof.Proof.Gen.ReferenceIdeal
import proofs.«161243_j64132451663995_2_alg».proof.Proof.Gen.Pre_finite_inputs
import proofs.«161243_j64132451663995_2_alg».proof.Proof.FrameKernel
import proofs.«161243_j64132451663995_2_alg».proof.Proof.FrameKernelIdeal
import proofs.«161243_j64132451663995_2_alg».proof.Proof.KernelValue
import proofs.«161243_j64132451663995_2_alg».proof.Proof.RefValue
import proofs.«161243_j64132451663995_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.GenP.frame m ρ
/-- The idealized kernel runs and keeps its arguments. -/
theorem frame_ki : Cert.frame_KernelIdeal := fun m ρ _ => Cert.KernelIdeal.GenP.frame m ρ
/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals both programs end with the specification of their (agreeing) arguments: the kernel by its two
    regions' write-backs, the reference stage by stage. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v23_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
